-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_arg7 : FVec F S256x256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : IVec S50000 32) (main_arg3 : FVec F S256x256 .f32) (main_arg4 : FVec F S256 .f32) (main_arg5 : FVec F S256x256 .f32) (main_arg6 : FVec F S256 .f32) (main_arg7 : FVec F S256x256 .f32) (main_arg8 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x256 : Shape := ⟨2, ![1, 256]⟩
abbrev S2000x256 : Shape := ⟨2, ![2000, 256]⟩
abbrev S850000x256 : Shape := ⟨2, ![850000, 256]⟩

abbrev nBuf : Space → Nat
  | .hbm => 109
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S1x256, .f32⟩
  | .hbm, ⟨53, _⟩ => ⟨S50000x256, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x256, .f32⟩
  | .hbm, ⟨63, _⟩ => ⟨S850000x1, .f32⟩
  | .hbm, ⟨64, _⟩ => ⟨S850000x256, .f32⟩
  | .hbm, ⟨65, _⟩ => ⟨S850000x256, .f32⟩
  | .hbm, ⟨66, _⟩ => ⟨S_, .f32⟩
  | .hbm, ⟨67, _⟩ => ⟨S50000x256, .f32⟩
  | .hbm, ⟨68, _⟩ => ⟨S850000x1, .i32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x256, .f32⟩
  | .hbm, ⟨81, _⟩ => ⟨S850000x1, .f32⟩
  | .hbm, ⟨82, _⟩ => ⟨S850000x256, .f32⟩
  | .hbm, ⟨83, _⟩ => ⟨S850000x256, .f32⟩
  | .hbm, ⟨84, _⟩ => ⟨S_, .f32⟩
  | .hbm, ⟨85, _⟩ => ⟨S50000x256, .f32⟩
  | .hbm, ⟨86, _⟩ => ⟨S850000x1, .i32⟩
  | .hbm, ⟨87, _⟩ => ⟨S50000x256, .f32⟩
  | .hbm, ⟨88, _⟩ => ⟨S1x256, .f32⟩
  | .hbm, ⟨89, _⟩ => ⟨S50000x256, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x256, .f32⟩
  | .hbm, ⟨99, _⟩ => ⟨S850000x1, .f32⟩
  | .hbm, ⟨100, _⟩ => ⟨S850000x256, .f32⟩
  | .hbm, ⟨101, _⟩ => ⟨S850000x256, .f32⟩
  | .hbm, ⟨102, _⟩ => ⟨S_, .f32⟩
  | .hbm, ⟨103, _⟩ => ⟨S50000x256, .f32⟩
  | .hbm, ⟨104, _⟩ => ⟨S850000x1, .i32⟩
  | .hbm, ⟨105, _⟩ => ⟨S50000x256, .f32⟩
  | .hbm, ⟨106, _⟩ => ⟨S1x256, .f32⟩
  | .hbm, ⟨107, _⟩ => ⟨S50000x256, .f32⟩
  | .hbm, ⟨108, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 147
  | .vmem => 0
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S1x800000, .i32⟩
  | 10 => ⟨S800000, .i32⟩
  | 11 => ⟨S50000, .i32⟩
  | 12 => ⟨S850000, .i32⟩
  | 13 => ⟨S1x800000, .i32⟩
  | 14 => ⟨S800000, .i32⟩
  | 15 => ⟨S50000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x256, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x256, .f32⟩
  | 63 => ⟨S850000x1, .f32⟩
  | 64 => ⟨S850000x256, .f32⟩
  | 65 => ⟨S850000x256, .f32⟩
  | 66 => ⟨S_, .f32⟩
  | 67 => ⟨S50000x256, .f32⟩
  | 68 => ⟨S850000x1, .i32⟩
  | 69 => ⟨S50000x256, .f32⟩
  | 70 => ⟨S1x256, .f32⟩
  | 71 => ⟨S50000x256, .f32⟩
  | 72 => ⟨S50000x256, .f32⟩
  | 73 => ⟨S50000x256, .f32⟩
  | 74 => ⟨S50000x256, .f32⟩
  | 75 => ⟨S_, .f32⟩
  | 76 => ⟨S50000x256, .f32⟩
  | 77 => ⟨S50000x256, .f32⟩
  | 78 => ⟨S50000x256, .f32⟩
  | 79 => ⟨S_, .f32⟩
  | 80 => ⟨S50000x256, .f32⟩
  | 81 => ⟨S50000x256, .f32⟩
  | 82 => ⟨S50000x256, .f32⟩
  | 83 => ⟨S_, .f32⟩
  | 84 => ⟨S50000x256, .f32⟩
  | 85 => ⟨S50000x256, .f32⟩
  | 86 => ⟨S_, .f32⟩
  | 87 => ⟨S50000x256, .f32⟩
  | 88 => ⟨S50000x256, .f32⟩
  | 89 => ⟨S50000x256, .f32⟩
  | 90 => ⟨S50000x256, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000x256, .f32⟩
  | 100 => ⟨S850000x1, .f32⟩
  | 101 => ⟨S850000x256, .f32⟩
  | 102 => ⟨S850000x256, .f32⟩
  | 103 => ⟨S_, .f32⟩
  | 104 => ⟨S50000x256, .f32⟩
  | 105 => ⟨S850000x1, .i32⟩
  | 106 => ⟨S50000x256, .f32⟩
  | 107 => ⟨S1x256, .f32⟩
  | 108 => ⟨S50000x256, .f32⟩
  | 109 => ⟨S50000x256, .f32⟩
  | 110 => ⟨S50000x256, .f32⟩
  | 111 => ⟨S50000x256, .f32⟩
  | 112 => ⟨S_, .f32⟩
  | 113 => ⟨S50000x256, .f32⟩
  | 114 => ⟨S50000x256, .f32⟩
  | 115 => ⟨S50000x256, .f32⟩
  | 116 => ⟨S_, .f32⟩
  | 117 => ⟨S50000x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S_, .f32⟩
  | 124 => ⟨S50000x256, .f32⟩
  | 125 => ⟨S50000x256, .f32⟩
  | 126 => ⟨S50000x256, .f32⟩
  | 127 => ⟨S50000x256, .f32⟩
  | _ => ⟨S50000x256, .f32⟩

abbrev hbmTy0_1 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S850000x256, .f32⟩
  | 9 => ⟨S850000x1, .f32⟩
  | 10 => ⟨S850000x256, .f32⟩
  | 11 => ⟨S850000x256, .f32⟩
  | 12 => ⟨S_, .f32⟩
  | 13 => ⟨S50000x256, .f32⟩
  | 14 => ⟨S850000x1, .i32⟩
  | 15 => ⟨S50000x256, .f32⟩
  | 16 => ⟨S1x256, .f32⟩
  | 17 => ⟨S50000x256, .f32⟩
  | 18 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_18 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_19 : Ref sig .tc := ⟨.hbm, 120, rfl⟩
abbrev main_v88 : Ref sig .tc := ⟨.hbm, 121, rfl⟩
abbrev main_v89 : Ref sig .tc := ⟨.hbm, 122, rfl⟩
abbrev main_cst_20 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_21 : Ref sig .tc := ⟨.hbm, 128, rfl⟩
abbrev main_v94 : Ref sig .tc := ⟨.hbm, 129, rfl⟩
abbrev main_v95 : Ref sig .tc := ⟨.hbm, 130, rfl⟩
abbrev main_c_22 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_23 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.ResultRun.lean ====
/-
  The kernel program's run with its result named.

  The program alternates stretches of host operations with three kernel launches.  Its buffer contents at each boundary
  are a fold from the launch memory: a stretch of host operations rewrites the buffers it writes, a launch leaves in
  each of its arrays what its grid points wrote back and leaves every other buffer alone.  Every weakly fair execution
  terminates, and at the end each buffer the program does not scope holds the last stage of that fold.  Read at the
  result buffer this says what the program returns; read at an argument it says the argument is unchanged.
-/
import proofs.«131338_j6691559047721_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last stage of
    the fold of buffer contents, read at that buffer, and every argument ends as launched. -/
theorem run_result : θ_run defs (onTc (τ := τ) (main (F := F))) ⟨m, fun _ => 0, ρ⟩ (fun r => ∀ c : Dev nD,
      r.2.mem ((c.tc : Thread nD τ).loc main_v79) = W9 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v79 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.ResultRun

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.Activation.lean ====
/-
  The activation between two layers, as one function on the extended reals.

  Both programs apply the tanh form of GELU,
  `x · (1/2 · (1 + tanh (c₂ · (x + c₁ · x³))))`, with the same two binary constants `c₁` (near 0.044715) and `c₂`
  (near √(2/π)).  They differ only in how the cube is bracketed: one multiplies `x` by `x · x`, the other multiplies
  `x · x` by `x`.  Multiplication of extended reals is commutative, so the two are the same number at every `x`,
  finite or not.
-/
import Idealize.ShloMosaic.PureOps.Ideal

noncomputable section

namespace Cert.Gcn

open Idealize.ShloMosaic

/-- The activation, with the cube bracketed as `x · (x · x)`. -/
def act (x : EReal) : EReal :=
  x * (Ideal.ofBits .f32 0x3F000000#32 * (Ideal.ofBits .f32 0x3F800000#32 +
    Ideal.tanh (Ideal.ofBits .f32 0x3F4C422A#32 * (x + Ideal.ofBits .f32 0x3D372713#32 * (x * (x * x))))))

/-- The same activation with the cube bracketed as `(x · x) · x`. -/
theorem act_cube_left (x : EReal) :
    x * (Ideal.ofBits .f32 0x3F000000#32 * (Ideal.ofBits .f32 0x3F800000#32 +
      Ideal.tanh (Ideal.ofBits .f32 0x3F4C422A#32 * (x + Ideal.ofBits .f32 0x3D372713#32 * (x * x * x))))) = act x := by
  unfold act
  rw [mul_comm (x * x) x]

end Cert.Gcn

end
-- ==== Proof.BlockProducts.lean ====
/-
  What one grid point of each layer's kernel stores, read at an entry of its block of 2000 rows.

  The first layer's body multiplies its block of rows `x` (2000 by 256) by the whole weight matrix `w` (256 by 256):
  entry `(p, f)` of what it stores is the inner product of row `p` of `x` with column `f` of `w`.  The second and third
  layers' bodies first add the bias row `b` to every row of the block and apply the activation entry by entry, and
  then multiply: entry `(p, f)` is the sum over `d` of `act (x (p, d) + b (0, d)) · w (d, f)`.  Rounding the factors to a
  shorter format before the product changes nothing on the extended reals, and the product accumulates into zero.
-/
import proofs.«131338_j6691559047721_1_alg».proof.Proof.Gen.KernelIdeal.Skeleton
import proofs.«131338_j6691559047721_1_alg».proof.Proof.LibInnerProducts
import proofs.«131338_j6691559047721_1_alg».proof.Proof.Activation
import Idealize.ShloMosaic.Lib.ValueIdx
import Idealize.ShloMosaic.Lib.ValueLayout
import Idealize.ShloMosaic.Lib.Pipeline.Value

noncomputable section

namespace Cert.KernelIdeal.BlockProducts

open Cert.KernelIdeal Cert.KernelIdeal.Gen Idealize.ShloMosaic Idealize.ShloMosaic.ValueIdx Cert.Gcn
open scoped BigOperators

/-- The first layer's block: rows of `x` against columns of `w`. -/
theorem plain_block (x : Vec Ideal S2000x256 .f32) (w : Vec Ideal S256x256 .f32) (p : Fin 2000) (f : Fin 256) :
    k0_pay1 (F := Ideal) x w (ix2 p f) = ∑ d : Fin 256, x (ix2 p d) * w (ix2 d f) := by
  unfold k0_pay1
  exact InnerProducts.matmul_zero_apply dot_S2000x256_S256x256_S2000x256_1_0_0_1_n_n rfl none _ _ p f

/-- The bias row spread over the block and added, then the activation, at one entry. -/
theorem activated_entry (x : Vec Ideal S2000x256 .f32) (b : Vec Ideal S1x256 .f32) (p : Fin 2000) (d : Fin 256)
    (v : FVec Ideal S2000x256 .f32)
    (hv : v = addf (shapeCast S2000x256 x shapeCasts_S2000x256_S2000x256)
      (broadcastTo S2000x256 (shapeCast S1x256 b shapeCasts_S1x256_S1x256) broadcasts_S1x256_S2000x256)) :
    v (ix2 p d) = x (ix2 p d) + b (ix2 (0 : Fin 1) d) := by
  subst hv
  rw [shapeCast_self, shapeCast_self]
  show x (ix2 p d) + broadcastTo S2000x256 b broadcasts_S1x256_S2000x256 (ix2 p d) = _
  rw [broadcastTo_1b_ab_apply]

/-- The second layer's block: the activated rows of `x + b` against columns of `w`. -/
theorem activated_block (x : Vec Ideal S2000x256 .f32) (b : Vec Ideal S1x256 .f32) (w : Vec Ideal S256x256 .f32)
    (p : Fin 2000) (f : Fin 256) :
    k1_pay1 (F := Ideal) x b w (ix2 p f) = ∑ d : Fin 256, act (x (ix2 p d) + b (ix2 (0 : Fin 1) d)) * w (ix2 d f) := by
  unfold k1_pay1
  refine (InnerProducts.matmul_zero_apply dot_S2000x256_S256x256_S2000x256_1_0_0_1_n_n rfl none _ _ p f).trans ?_
  refine Finset.sum_congr rfl fun d _ => ?_
  refine congrArg (· * w (ix2 d f)) ?_
  have e := activated_entry x b p d _ rfl
  show (_ : EReal) * (_ * (_ + Ideal.tanh (_ * (_ + _ * (_ * (_ * _)))))) = act _
  rw [e]
  rfl

/-- The third layer's body is the second's, word for word. -/
theorem third_eq_second (x : Vec Ideal S2000x256 .f32) (b : Vec Ideal S1x256 .f32) (w : Vec Ideal S256x256 .f32) :
    k2_pay1 (F := Ideal) x b w = k1_pay1 (F := Ideal) x b w := rfl

end Cert.KernelIdeal.BlockProducts

end
-- ==== Proof.Layers.lean ====
/-
  One layer's dense transform, as a function of whole arrays.

  A layer multiplies the node features `A` (50000 rows of 256 numbers) by a 256 by 256 weight matrix `W`: entry
  `(r, f)` of the product is the sum over `d` of `A (r, d) · W (d, f)`.  The second and third layers first add a bias
  `b` to every row and apply the activation to every entry: entry `(r, f)` is the sum over `d` of
  `act (A (r, d) + b d) · W (d, f)`.  Each entry depends on one row of `A` only, which is why the rows can be handled
  in blocks, in any order.
-/
import proofs.«131338_j6691559047721_1_alg».proof.Proof.Activation
import Idealize.ShloMosaic.Lib.ValueIdx

noncomputable section

namespace Cert.Gcn

open Idealize.ShloMosaic Idealize.ShloMosaic.ValueIdx
open scoped BigOperators

/-- The node features: 50000 rows of 256 numbers. -/
abbrev Nodes : Shape := ⟨2, ![50000, 256]⟩
/-- A weight matrix. -/
abbrev Weights : Shape := ⟨2, ![256, 256]⟩
/-- A bias vector. -/
abbrev Bias : Shape := ⟨1, ![256]⟩

/-- Entry `d` of the row of `A` that the result's entry `i` is computed from. -/
abbrev rowEntry (i : Nodes.Idx) (d : Fin 256) : Nodes.Idx := fun a => match a with
  | ⟨0, _⟩ => ⟨(i 0).val, (i 0).isLt⟩
  | ⟨1, _⟩ => ⟨d.val, d.isLt⟩
/-- Entry `d` of the column of `W` that the result's entry `i` is computed from. -/
abbrev colEntry (i : Nodes.Idx) (d : Fin 256) : Weights.Idx := fun a => match a with
  | ⟨0, _⟩ => ⟨d.val, d.isLt⟩
  | ⟨1, _⟩ => ⟨(i 1).val, (i 1).isLt⟩

/-- The plain transform `A · W`. -/
def transform (A : Nodes.Idx → EReal) (W : Weights.Idx → EReal) : Nodes.Idx → EReal :=
  fun i => ∑ d : Fin 256, A (rowEntry i d) * W (colEntry i d)

/-- The transform of the activated, biased features: `act (A + b) · W`. -/
def transformAct (A : Nodes.Idx → EReal) (b : Bias.Idx → EReal) (W : Weights.Idx → EReal) : Nodes.Idx → EReal :=
  fun i => ∑ d : Fin 256, act (A (rowEntry i d) + b (ix1 d)) * W (colEntry i d)

end Cert.Gcn

end
-- ==== Proof.FirstLaunch.lean ====
/-
  What the first launch leaves in its result array.

  The launch walks 25 grid points; point `t` reads rows `2000 t … 2000 t + 1999` of the node features and the whole
  weight matrix, and writes back rows `2000 t … 2000 t + 1999` of the product.  Each written entry is the inner product
  of its own row of the features with a column of the weights; so every point writes its block of one whole-array
  function, the 25 blocks tile the 50000 rows, and the array ends holding the plain transform.
-/
import proofs.«131338_j6691559047721_1_alg».proof.Proof.Gen.KernelIdeal.Frame
import proofs.«131338_j6691559047721_1_alg».proof.Proof.BlockProducts
import proofs.«131338_j6691559047721_1_alg».proof.Proof.Layers
import Idealize.ShloMosaic.Lib.Pipeline.Value

set_option maxRecDepth 16384

noncomputable section

namespace Cert.KernelIdeal.FirstLaunch

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the features' and the result's blocks are rows `2000 t` onward, the
    weights are read whole. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_3.index t (0 : Fin 2) = t.val ∧ win0_3.index t (1 : Fin 2) = 0 :=
  (by decide +kernel : ∀ t : Fin grid0.N, _)

/-- The features' block at point `t` is rows `2000 t …` of the array. -/
theorem features_block (c : Dev nD) (t : Fin cfg0.N) (y : S2000x256.Idx) (i : S50000x256.Idx)
    (h0 : (i 0).val = 2000 * t.val + (y 0).val) (h1 : (i 1).val = (y 1).val) :
    (iblk0 V c 0 t : Vec Ideal S2000x256 .f32) y = (V c main_arg0 : S50000x256.Idx → EReal) i := by
  obtain ⟨e0, e1, -⟩ := block_positions t
  unfold iblk0
  rw [View.read_apply]
  show V c main_arg0 _ = V c main_arg0 _
  refine congrArg (V c main_arg0) (funext fun a => Fin.ext ?_)
  match a with
  | ⟨0, _⟩ => show win0_0.index t 0 * 2000 + 1 * (y 0).val = (i 0).val; rw [e0, h0]; omega
  | ⟨1, _⟩ => show win0_0.index t 1 * 256 + 1 * (y 1).val = (i 1).val; rw [e1, h1]; omega

/-- The weights' block at every point is the whole matrix. -/
theorem weights_block (c : Dev nD) (t : Fin cfg0.N) (y : S256x256.Idx) (i : S256x256.Idx)
    (h0 : (i 0).val = (y 0).val) (h1 : (i 1).val = (y 1).val) :
    (iblk0 V c 1 t : Vec Ideal S256x256 .f32) y = (V c main_arg3 : S256x256.Idx → EReal) i := by
  obtain ⟨-, -, e0, e1, -⟩ := block_positions t
  unfold iblk0
  rw [View.read_apply]
  show V c main_arg3 _ = V c main_arg3 _
  refine congrArg (V c main_arg3) (funext fun a => Fin.ext ?_)
  match a with
  | ⟨0, _⟩ => show win0_1.index t 0 * 256 + 1 * (y 0).val = (i 0).val; rw [e0, h0]; omega
  | ⟨1, _⟩ => show win0_1.index t 1 * 256 + 1 * (y 1).val = (i 1).val; rw [e1, h1]; omega

/-- One stored entry: the block's payload at `(p, f)` is the whole-array transform at row `2000 t + p`, column `f`. -/
theorem stored_entry (c : Dev nD) (t : Fin cfg0.N) (p : Fin 2000) (f : Fin 256) (i : S50000x256.Idx)
    (h0 : (i 0).val = 2000 * t.val + p.val) (h1 : (i 1).val = f.val) :
    k0_pay1 (F := Ideal) (iblk0 V c 0 t) (iblk0 V c 1 t) (ix2 p f) = transform (V c main_arg0) (V c main_arg3) i := by
  rw [BlockProducts.plain_block]
  unfold transform
  refine Finset.sum_congr rfl fun d _ => ?_
  rw [features_block V c t (ix2 p d) (rowEntry i d) h0 rfl, weights_block V c t (ix2 d f) (colEntry i d) rfl h1]

/-- What point `t` writes back is its block of the transform of the region's entry arrays. -/
theorem written_block (c : Dev nD) (t : Fin cfg0.N) :
    (dat0 V c).flushed 3 t
      = ((cfg0.win 3).blk t).view.read (Elt Ideal) (transform (V c main_arg0) (V c main_arg3)) := by
  obtain ⟨-, -, -, -, e0, e1⟩ := block_positions t
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz]
  funext j
  rw [View.read_apply]
  obtain ⟨p, f, rfl⟩ : ∃ (p : Fin 2000) (f : Fin 256), j = ix2 p f := ⟨j 0, j 1, eq_ix2 j⟩
  refine stored_entry V c t p f _ ?_ ?_
  · show win0_3.index t 0 * 2000 + 1 * p.val = 2000 * t.val + p.val; rw [e0]; omega
  · show win0_3.index t 1 * 256 + 1 * f.val = f.val; rw [e1]; omega

/-- An index of the result array is in point `t`'s block iff each coordinate is in the block's range on its axis. -/
theorem mem_block (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v33).slice (win0_3.rect t)).set ↔ _
  rw [View.set_slice_whole, Rect.mem_set_unit]
  exact Iff.rfl

/-- Row `r` is written by point `r / 2000`. -/
theorem rows_covered (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, e0, e1⟩ := block_positions t
  refine ⟨t, flush0_3 t, ?_⟩
  rw [mem_block]
  intro a
  have ht : t.val = (i 0).val / 2000 := rfl
  match a with
  | ⟨0, _⟩ => show win0_3.index t 0 * 2000 ≤ (i 0).val ∧ (i 0).val < win0_3.index t 0 * 2000 + 2000; rw [e0, ht]; omega
  | ⟨1, _⟩ => show win0_3.index t 1 * 256 ≤ (i 1).val ∧ (i 1).val < win0_3.index t 1 * 256 + 256; rw [e1]; omega

/-- The result array after the launch is the plain transform of the arrays the launch found. -/
theorem result_array (c : Dev nD) :
    (dat0 V c).arrAt 3 cfg0.N = transform (V c main_arg0) (V c main_arg3) :=
  (dat0 V c).arrAt_eq_of_cover 3 (transform (V c main_arg0) (V c main_arg3))
    (fun t _ => written_block V c t) rows_covered

end Cert.KernelIdeal.FirstLaunch

end
-- ==== Proof.SecondLaunch.lean ====
/-
  What the second launch leaves in its result array.

  The launch walks 25 grid points; point `t` reads rows `2000 t … 2000 t + 1999` of the node features, the whole
  weight matrix and the bias row, and writes back rows `2000 t … 2000 t + 1999` of the result.  Each written entry is the
  transform of the activated, biased features at that entry, which depends on its own row only; so every point writes
  its block of one whole-array function, the 25 blocks tile the 50000 rows, and the array ends holding that function.
-/
import proofs.«131338_j6691559047721_1_alg».proof.Proof.Gen.KernelIdeal.Frame
import proofs.«131338_j6691559047721_1_alg».proof.Proof.BlockProducts
import proofs.«131338_j6691559047721_1_alg».proof.Proof.Layers
import Idealize.ShloMosaic.Lib.Pipeline.Value

set_option maxRecDepth 16384

noncomputable section

namespace Cert.KernelIdeal.SecondLaunch

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the features' and the result's blocks are rows `2000 t` onward, the
    weights and the bias are read whole. -/
theorem block_positions : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The features' block at point `t` is rows `2000 t …` of the array. -/
theorem features_block (c : Dev nD) (t : Fin cfg1.N) (y : S2000x256.Idx) (i : S50000x256.Idx)
    (h0 : (i 0).val = 2000 * t.val + (y 0).val) (h1 : (i 1).val = (y 1).val) :
    (iblk1 V c 0 t : Vec Ideal S2000x256 .f32) y = (V c main_v46 : S50000x256.Idx → EReal) i := by
  obtain ⟨e0, e1, -⟩ := block_positions t
  unfold iblk1
  rw [View.read_apply]
  show V c main_v46 _ = V c main_v46 _
  refine congrArg (V c main_v46) (funext fun a => Fin.ext ?_)
  match a with
  | ⟨0, _⟩ => show win1_0.index t 0 * 2000 + 1 * (y 0).val = (i 0).val; rw [e0, h0]; omega
  | ⟨1, _⟩ => show win1_0.index t 1 * 256 + 1 * (y 1).val = (i 1).val; rw [e1, h1]; omega

/-- The weights' block at every point is the whole matrix. -/
theorem weights_block (c : Dev nD) (t : Fin cfg1.N) (y : S256x256.Idx) (i : S256x256.Idx)
    (h0 : (i 0).val = (y 0).val) (h1 : (i 1).val = (y 1).val) :
    (iblk1 V c 1 t : Vec Ideal S256x256 .f32) y = (V c main_arg5 : S256x256.Idx → EReal) i := by
  obtain ⟨-, -, e0, e1, -⟩ := block_positions t
  unfold iblk1
  rw [View.read_apply]
  show V c main_arg5 _ = V c main_arg5 _
  refine congrArg (V c main_arg5) (funext fun a => Fin.ext ?_)
  match a with
  | ⟨0, _⟩ => show win1_1.index t 0 * 256 + 1 * (y 0).val = (i 0).val; rw [e0, h0]; omega
  | ⟨1, _⟩ => show win1_1.index t 1 * 256 + 1 * (y 1).val = (i 1).val; rw [e1, h1]; omega

/-- The bias row's block at every point is the whole row. -/
theorem bias_block (c : Dev nD) (t : Fin cfg1.N) (y : S1x256.Idx) (i : S1x256.Idx)
    (h0 : (i 0).val = (y 0).val) (h1 : (i 1).val = (y 1).val) :
    (iblk1 V c 2 t : Vec Ideal S1x256 .f32) y = (V c main_v47 : S1x256.Idx → EReal) i := by
  obtain ⟨-, -, -, -, e0, e1, -⟩ := block_positions t
  unfold iblk1
  rw [View.read_apply]
  show V c main_v47 _ = V c main_v47 _
  refine congrArg (V c main_v47) (funext fun a => Fin.ext ?_)
  match a with
  | ⟨0, _⟩ => show win1_2.index t 0 * 1 + 1 * (y 0).val = (i 0).val; rw [e0, h0]; omega
  | ⟨1, _⟩ => show win1_2.index t 1 * 256 + 1 * (y 1).val = (i 1).val; rw [e1, h1]; omega

/-- One stored entry: the block's payload at `(p, f)` is the whole-array transform at row `2000 t + p`, column `f`. -/
theorem stored_entry (c : Dev nD) (t : Fin cfg1.N) (b : Bias.Idx → EReal)
    (hb : ∀ d : Fin 256, (V c main_v47 : S1x256.Idx → EReal) (ix2 (0 : Fin 1) d) = b (ix1 d))
    (p : Fin 2000) (f : Fin 256) (i : S50000x256.Idx)
    (h0 : (i 0).val = 2000 * t.val + p.val) (h1 : (i 1).val = f.val) :
    k1_pay1 (F := Ideal) (iblk1 V c 0 t) (iblk1 V c 2 t) (iblk1 V c 1 t) (ix2 p f)
      = transformAct (V c main_v46) b (V c main_arg5) i := by
  rw [BlockProducts.activated_block]
  unfold transformAct
  refine Finset.sum_congr rfl fun d _ => ?_
  rw [features_block V c t (ix2 p d) (rowEntry i d) h0 rfl,
    weights_block V c t (ix2 d f) (colEntry i d) rfl h1,
    bias_block V c t (ix2 (0 : Fin 1) d) (ix2 (0 : Fin 1) d) rfl rfl, hb d]

/-- What point `t` writes back is its block of the transform of the region's entry arrays. -/
theorem written_block (c : Dev nD) (t : Fin cfg1.N) (b : Bias.Idx → EReal)
    (hb : ∀ d : Fin 256, (V c main_v47 : S1x256.Idx → EReal) (ix2 (0 : Fin 1) d) = b (ix1 d)) :
    (dat1 V c).flushed 3 t
      = ((cfg1.win 3).blk t).view.read (Elt Ideal) (transformAct (V c main_v46) b (V c main_arg5)) := by
  obtain ⟨-, -, -, -, -, -, e0, e1⟩ := block_positions t
  show (cfg1.win 3).cut (grid1.coords t) ((dat1 V c).after 3 t) = _
  rw [after1_3]
  unfold out1_3
  rw [View.canon_unit_zero hz]
  simp only [View.ld_unit_zero (S := S2000x256) hz, View.ld_unit_zero (S := S256x256) hz, View.ld_unit_zero (S := S1x256) hz]
  funext j
  rw [View.read_apply]
  obtain ⟨p, f, rfl⟩ : ∃ (p : Fin 2000) (f : Fin 256), j = ix2 p f := ⟨j 0, j 1, eq_ix2 j⟩
  refine stored_entry V c t b hb p f _ ?_ ?_
  · show win1_3.index t 0 * 2000 + 1 * p.val = 2000 * t.val + p.val; rw [e0]; omega
  · show win1_3.index t 1 * 256 + 1 * f.val = f.val; rw [e1]; omega

/-- An index of the result array is in point `t`'s block iff each coordinate is in the block's range on its axis. -/
theorem mem_block (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v48).slice (win1_3.rect t)).set ↔ _
  rw [View.set_slice_whole, Rect.mem_set_unit]
  exact Iff.rfl

/-- Row `r` is written by point `r / 2000`. -/
theorem rows_covered (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨-, -, -, -, -, -, e0, e1⟩ := block_positions t
  refine ⟨t, flush1_3 t, ?_⟩
  rw [mem_block]
  intro a
  have ht : t.val = (i 0).val / 2000 := rfl
  match a with
  | ⟨0, _⟩ => show win1_3.index t 0 * 2000 ≤ (i 0).val ∧ (i 0).val < win1_3.index t 0 * 2000 + 2000; rw [e0, ht]; omega
  | ⟨1, _⟩ => show win1_3.index t 1 * 256 ≤ (i 1).val ∧ (i 1).val < win1_3.index t 1 * 256 + 256; rw [e1]; omega

/-- The result array after the launch is the transform of the arrays the launch found. -/
theorem result_array (c : Dev nD) (b : Bias.Idx → EReal)
    (hb : ∀ d : Fin 256, (V c main_v47 : S1x256.Idx → EReal) (ix2 (0 : Fin 1) d) = b (ix1 d)) :
    (dat1 V c).arrAt 3 cfg1.N = transformAct (V c main_v46) b (V c main_arg5) :=
  (dat1 V c).arrAt_eq_of_cover 3 (transformAct (V c main_v46) b (V c main_arg5))
    (fun t _ => written_block V c t b hb) rows_covered

end Cert.KernelIdeal.SecondLaunch

end
-- ==== Proof.ThirdLaunch.lean ====
/-
  What the third launch leaves in its result array.

  The launch walks 25 grid points; point `t` reads rows `2000 t … 2000 t + 1999` of the node features, the whole
  weight matrix and the bias row, and writes back rows `2000 t … 2000 t + 1999` of the result.  Each written entry is the
  transform of the activated, biased features at that entry, which depends on its own row only; so every point writes
  its block of one whole-array function, the 25 blocks tile the 50000 rows, and the array ends holding that function.
-/
import proofs.«131338_j6691559047721_1_alg».proof.Proof.Gen.KernelIdeal.Frame
import proofs.«131338_j6691559047721_1_alg».proof.Proof.BlockProducts
import proofs.«131338_j6691559047721_1_alg».proof.Proof.Layers
import Idealize.ShloMosaic.Lib.Pipeline.Value

set_option maxRecDepth 16384

noncomputable section

namespace Cert.KernelIdeal.ThirdLaunch

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the features' and the result's blocks are rows `2000 t` onward, the
    weights and the bias are read whole. -/
theorem block_positions : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The features' block at point `t` is rows `2000 t …` of the array. -/
theorem features_block (c : Dev nD) (t : Fin cfg2.N) (y : S2000x256.Idx) (i : S50000x256.Idx)
    (h0 : (i 0).val = 2000 * t.val + (y 0).val) (h1 : (i 1).val = (y 1).val) :
    (iblk2 V c 0 t : Vec Ideal S2000x256 .f32) y = (V c main_v61 : S50000x256.Idx → EReal) i := by
  obtain ⟨e0, e1, -⟩ := block_positions t
  unfold iblk2
  rw [View.read_apply]
  show V c main_v61 _ = V c main_v61 _
  refine congrArg (V c main_v61) (funext fun a => Fin.ext ?_)
  match a with
  | ⟨0, _⟩ => show win2_0.index t 0 * 2000 + 1 * (y 0).val = (i 0).val; rw [e0, h0]; omega
  | ⟨1, _⟩ => show win2_0.index t 1 * 256 + 1 * (y 1).val = (i 1).val; rw [e1, h1]; omega

/-- The weights' block at every point is the whole matrix. -/
theorem weights_block (c : Dev nD) (t : Fin cfg2.N) (y : S256x256.Idx) (i : S256x256.Idx)
    (h0 : (i 0).val = (y 0).val) (h1 : (i 1).val = (y 1).val) :
    (iblk2 V c 1 t : Vec Ideal S256x256 .f32) y = (V c main_arg7 : S256x256.Idx → EReal) i := by
  obtain ⟨-, -, e0, e1, -⟩ := block_positions t
  unfold iblk2
  rw [View.read_apply]
  show V c main_arg7 _ = V c main_arg7 _
  refine congrArg (V c main_arg7) (funext fun a => Fin.ext ?_)
  match a with
  | ⟨0, _⟩ => show win2_1.index t 0 * 256 + 1 * (y 0).val = (i 0).val; rw [e0, h0]; omega
  | ⟨1, _⟩ => show win2_1.index t 1 * 256 + 1 * (y 1).val = (i 1).val; rw [e1, h1]; omega

/-- The bias row's block at every point is the whole row. -/
theorem bias_block (c : Dev nD) (t : Fin cfg2.N) (y : S1x256.Idx) (i : S1x256.Idx)
    (h0 : (i 0).val = (y 0).val) (h1 : (i 1).val = (y 1).val) :
    (iblk2 V c 2 t : Vec Ideal S1x256 .f32) y = (V c main_v62 : S1x256.Idx → EReal) i := by
  obtain ⟨-, -, -, -, e0, e1, -⟩ := block_positions t
  unfold iblk2
  rw [View.read_apply]
  show V c main_v62 _ = V c main_v62 _
  refine congrArg (V c main_v62) (funext fun a => Fin.ext ?_)
  match a with
  | ⟨0, _⟩ => show win2_2.index t 0 * 1 + 1 * (y 0).val = (i 0).val; rw [e0, h0]; omega
  | ⟨1, _⟩ => show win2_2.index t 1 * 256 + 1 * (y 1).val = (i 1).val; rw [e1, h1]; omega

/-- One stored entry: the block's payload at `(p, f)` is the whole-array transform at row `2000 t + p`, column `f`. -/
theorem stored_entry (c : Dev nD) (t : Fin cfg2.N) (b : Bias.Idx → EReal)
    (hb : ∀ d : Fin 256, (V c main_v62 : S1x256.Idx → EReal) (ix2 (0 : Fin 1) d) = b (ix1 d))
    (p : Fin 2000) (f : Fin 256) (i : S50000x256.Idx)
    (h0 : (i 0).val = 2000 * t.val + p.val) (h1 : (i 1).val = f.val) :
    k1_pay1 (F := Ideal) (iblk2 V c 0 t) (iblk2 V c 2 t) (iblk2 V c 1 t) (ix2 p f)
      = transformAct (V c main_v61) b (V c main_arg7) i := by
  rw [BlockProducts.activated_block]
  unfold transformAct
  refine Finset.sum_congr rfl fun d _ => ?_
  rw [features_block V c t (ix2 p d) (rowEntry i d) h0 rfl,
    weights_block V c t (ix2 d f) (colEntry i d) rfl h1,
    bias_block V c t (ix2 (0 : Fin 1) d) (ix2 (0 : Fin 1) d) rfl rfl, hb d]

/-- What point `t` writes back is its block of the transform of the region's entry arrays. -/
theorem written_block (c : Dev nD) (t : Fin cfg2.N) (b : Bias.Idx → EReal)
    (hb : ∀ d : Fin 256, (V c main_v62 : S1x256.Idx → EReal) (ix2 (0 : Fin 1) d) = b (ix1 d)) :
    (dat2 V c).flushed 3 t
      = ((cfg2.win 3).blk t).view.read (Elt Ideal) (transformAct (V c main_v61) b (V c main_arg7)) := by
  obtain ⟨-, -, -, -, -, -, e0, e1⟩ := block_positions t
  show (cfg2.win 3).cut (grid2.coords t) ((dat2 V c).after 3 t) = _
  rw [after2_3]
  unfold out2_3
  rw [View.canon_unit_zero hz]
  simp only [View.ld_unit_zero (S := S2000x256) hz, View.ld_unit_zero (S := S256x256) hz, View.ld_unit_zero (S := S1x256) hz]
  funext j
  rw [View.read_apply]
  obtain ⟨p, f, rfl⟩ : ∃ (p : Fin 2000) (f : Fin 256), j = ix2 p f := ⟨j 0, j 1, eq_ix2 j⟩
  refine stored_entry V c t b hb p f _ ?_ ?_
  · show win2_3.index t 0 * 2000 + 1 * p.val = 2000 * t.val + p.val; rw [e0]; omega
  · show win2_3.index t 1 * 256 + 1 * f.val = f.val; rw [e1]; omega

/-- An index of the result array is in point `t`'s block iff each coordinate is in the block's range on its axis. -/
theorem mem_block (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v63).slice (win2_3.rect t)).set ↔ _
  rw [View.set_slice_whole, Rect.mem_set_unit]
  exact Iff.rfl

/-- Row `r` is written by point `r / 2000`. -/
theorem rows_covered (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  have hN : cfg2.N = 25 := N_2
  let t : Fin cfg2.N := ⟨(i 0).val / 2000, by rw [hN]; omega⟩
  obtain ⟨-, -, -, -, -, -, e0, e1⟩ := block_positions t
  refine ⟨t, flush2_3 t, ?_⟩
  rw [mem_block]
  intro a
  have ht : t.val = (i 0).val / 2000 := rfl
  match a with
  | ⟨0, _⟩ => show win2_3.index t 0 * 2000 ≤ (i 0).val ∧ (i 0).val < win2_3.index t 0 * 2000 + 2000; rw [e0, ht]; omega
  | ⟨1, _⟩ => show win2_3.index t 1 * 256 ≤ (i 1).val ∧ (i 1).val < win2_3.index t 1 * 256 + 256; rw [e1]; omega

/-- The result array after the launch is the transform of the arrays the launch found. -/
theorem result_array (c : Dev nD) (b : Bias.Idx → EReal)
    (hb : ∀ d : Fin 256, (V c main_v62 : S1x256.Idx → EReal) (ix2 (0 : Fin 1) d) = b (ix1 d)) :
    (dat2 V c).arrAt 3 cfg2.N = transformAct (V c main_v61) b (V c main_arg7) :=
  (dat2 V c).arrAt_eq_of_cover 3 (transformAct (V c main_v61) b (V c main_arg7))
    (fun t _ => written_block V c t b hb) rows_covered

end Cert.KernelIdeal.ThirdLaunch

end
-- ==== Proof.RefLayers.lean ====
/-
  The reference program's stages, read as layers.

  The reference computes, three times over, "transform the node features by a weight matrix, aggregate over the
  edges, add a bias", with the activation between layers.  Its edge data (the source and destination of every edge,
  self-loops appended, and the symmetric normalization weight of every edge) depend on the edge list only and are the
  same in every layer; `aggregate` is the gather by source, scaling by the edge weight and scatter-add by destination
  that each layer applies to its transformed features.  Each dense stage is the transform of `Layers`: the first a
  plain product, the second and third the product of the activated, biased output of the layer before.
-/
import proofs.«131338_j6691559047721_1_alg».proof.Proof.RefRead
import proofs.«131338_j6691559047721_1_alg».proof.Proof.Layers

noncomputable section

namespace Cert.ReferenceIdeal.Layered

open Cert.ReferenceIdeal Cert.ReferenceIdeal.Gen Cert.ReferenceIdeal.ReadP Cert.Gcn
open Idealize.ShloMosaic Idealize.ShloMosaic.ValueIdx
open scoped BigOperators

/-- Aggregation over the edges: row `e` of the gathered array is row `src e` of `h`, scaled by the weight of edge `e`;
    the rows are then added into the rows `dst e` of a zero array. -/
def aggregate (x1 : (⟨S2x800000, .i32⟩ : BufTy).Contents (Elt Ideal)) (h : FVec Ideal S50000x256 .f32) :
    FVec Ideal S50000x256 .f32 :=
  Host.scatterAdd (F := Ideal) (φ := .f32) scatter_S50000x256_S850000x1_S850000x256_1_0_0_1 (val_main_v44 (F := Ideal)) (val_main_v45 (F := Ideal) x1)
    (mulf (F := Ideal) (φ := .f32) (Host.gather (α := Ideal .f32) gather_S50000x256_S850000x1_S850000x256_1_0_n_n_0_1_1256 h (val_main_v39 (F := Ideal) x1)) (val_main_v42 (F := Ideal) x1))

theorem first_aggregate (x0 : (⟨S50000x256, .f32⟩ : BufTy).Contents (Elt Ideal)) (x1 : (⟨S2x800000, .i32⟩ : BufTy).Contents (Elt Ideal)) (x3 : (⟨S256x256, .f32⟩ : BufTy).Contents (Elt Ideal)) :
    val_main_v46 (F := Ideal) x0 x1 x3 = aggregate x1 (val_main_v33 (F := Ideal) x0 x3) := rfl
theorem second_aggregate (x0 : (⟨S50000x256, .f32⟩ : BufTy).Contents (Elt Ideal)) (x1 : (⟨S2x800000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) :
    val_main_v76 (F := Ideal) x0 x1 x3 x4 x5 = aggregate x1 (val_main_v63 (F := Ideal) x0 x1 x3 x4 x5) := rfl
theorem third_aggregate (x0 : (⟨S50000x256, .f32⟩ : BufTy).Contents (Elt Ideal)) (x1 : (⟨S2x800000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) :
    val_main_v106 (F := Ideal) x0 x1 x3 x4 x5 x6 x7 = aggregate x1 (val_main_v93 (F := Ideal) x0 x1 x3 x4 x5 x6 x7) := rfl

theorem row_entry33 (i : S50000x256.Idx) (d : Fin 256) : lidx_main_v33 i d = rowEntry i d :=
  funext fun a => by match a with | ⟨0, _⟩ => rfl | ⟨1, _⟩ => rfl
theorem col_entry33 (i : S50000x256.Idx) (d : Fin 256) : ridx_main_v33 i d = colEntry i d :=
  funext fun a => by match a with | ⟨0, _⟩ => rfl | ⟨1, _⟩ => rfl
theorem row_entry63 (i : S50000x256.Idx) (d : Fin 256) : lidx_main_v63 i d = rowEntry i d :=
  funext fun a => by match a with | ⟨0, _⟩ => rfl | ⟨1, _⟩ => rfl
theorem col_entry63 (i : S50000x256.Idx) (d : Fin 256) : ridx_main_v63 i d = colEntry i d :=
  funext fun a => by match a with | ⟨0, _⟩ => rfl | ⟨1, _⟩ => rfl
theorem row_entry93 (i : S50000x256.Idx) (d : Fin 256) : lidx_main_v93 i d = rowEntry i d :=
  funext fun a => by match a with | ⟨0, _⟩ => rfl | ⟨1, _⟩ => rfl
theorem col_entry93 (i : S50000x256.Idx) (d : Fin 256) : ridx_main_v93 i d = colEntry i d :=
  funext fun a => by match a with | ⟨0, _⟩ => rfl | ⟨1, _⟩ => rfl

/-- The first dense stage is the plain transform of the features by the first weight matrix. -/
theorem first_layer (x0 : (⟨S50000x256, .f32⟩ : BufTy).Contents (Elt Ideal)) (x3 : (⟨S256x256, .f32⟩ : BufTy).Contents (Elt Ideal)) :
    val_main_v33 (F := Ideal) x0 x3 = transform x0 x3 := by
  funext i
  rw [val_main_v33_apply]
  unfold transform
  refine Finset.sum_congr rfl fun d _ => ?_
  rw [row_entry33, col_entry33]

/-- One entry of the second layer's activated input: the aggregated features plus the bias, through the activation. -/
theorem second_entry (x0 : (⟨S50000x256, .f32⟩ : BufTy).Contents (Elt Ideal)) (x1 : (⟨S2x800000, .i32⟩ : BufTy).Contents (Elt Ideal)) (x3 : (⟨S256x256, .f32⟩ : BufTy).Contents (Elt Ideal)) (x4 : (⟨S256, .f32⟩ : BufTy).Contents (Elt Ideal)) (j : S50000x256.Idx) (d : Fin 256) (hj : (j 1).val = d.val) :
    val_main_v62 (F := Ideal) x0 x1 x3 x4 j = act (val_main_v46 (F := Ideal) x0 x1 x3 j + x4 (ix1 d)) := by
  have hb : val_main_v48 (F := Ideal) x4 j = x4 (ix1 d) := by
    rw [val_main_v48_apply, val_main_v47_apply]
    refine congrArg x4 (funext fun a => Fin.ext ?_)
    match a with
    | ⟨0, _⟩ => exact hj
  have hc1 : val_main_v52 (F := Ideal) j = Ideal.ofBits .f32 0x3D372713#32 := by rw [val_main_v52_apply]; rfl
  have hc2 : val_main_v55 (F := Ideal) j = Ideal.ofBits .f32 0x3F4C422A#32 := by rw [val_main_v55_apply]; rfl
  have hc3 : val_main_v58 (F := Ideal) j = Ideal.ofBits .f32 0x3F800000#32 := by rw [val_main_v58_apply]; rfl
  have hc4 : val_main_v60 (F := Ideal) j = Ideal.ofBits .f32 0x3F000000#32 := by rw [val_main_v60_apply]; rfl
  have e49 : val_main_v49 (F := Ideal) x0 x1 x3 x4 j = (val_main_v46 (F := Ideal) x0 x1 x3 j + x4 (ix1 d)) := by
    rw [val_main_v49_apply, hb]; rfl
  have e50 : val_main_v50 (F := Ideal) x0 x1 x3 x4 j = (val_main_v46 (F := Ideal) x0 x1 x3 j + x4 (ix1 d)) * (val_main_v46 (F := Ideal) x0 x1 x3 j + x4 (ix1 d)) := by
    rw [val_main_v50_apply, e49]; rfl
  have e51 : val_main_v51 (F := Ideal) x0 x1 x3 x4 j = (val_main_v46 (F := Ideal) x0 x1 x3 j + x4 (ix1 d)) * (val_main_v46 (F := Ideal) x0 x1 x3 j + x4 (ix1 d)) * (val_main_v46 (F := Ideal) x0 x1 x3 j + x4 (ix1 d)) := by
    rw [val_main_v51_apply, e50, e49]; rfl
  have e53 : val_main_v53 (F := Ideal) x0 x1 x3 x4 j = Ideal.ofBits .f32 0x3D372713#32 * ((val_main_v46 (F := Ideal) x0 x1 x3 j + x4 (ix1 d)) * (val_main_v46 (F := Ideal) x0 x1 x3 j + x4 (ix1 d)) * (val_main_v46 (F := Ideal) x0 x1 x3 j + x4 (ix1 d))) := by
    rw [val_main_v53_apply, hc1, e51]; rfl
  have e54 : val_main_v54 (F := Ideal) x0 x1 x3 x4 j = (val_main_v46 (F := Ideal) x0 x1 x3 j + x4 (ix1 d)) + Ideal.ofBits .f32 0x3D372713#32 * ((val_main_v46 (F := Ideal) x0 x1 x3 j + x4 (ix1 d)) * (val_main_v46 (F := Ideal) x0 x1 x3 j + x4 (ix1 d)) * (val_main_v46 (F := Ideal) x0 x1 x3 j + x4 (ix1 d))) := by
    rw [val_main_v54_apply, e49, e53]; rfl
  have e56 : val_main_v56 (F := Ideal) x0 x1 x3 x4 j = Ideal.ofBits .f32 0x3F4C422A#32 * ((val_main_v46 (F := Ideal) x0 x1 x3 j + x4 (ix1 d)) + Ideal.ofBits .f32 0x3D372713#32 * ((val_main_v46 (F := Ideal) x0 x1 x3 j + x4 (ix1 d)) * (val_main_v46 (F := Ideal) x0 x1 x3 j + x4 (ix1 d)) * (val_main_v46 (F := Ideal) x0 x1 x3 j + x4 (ix1 d)))) := by
    rw [val_main_v56_apply, hc2, e54]; rfl
  have e57 : val_main_v57 (F := Ideal) x0 x1 x3 x4 j = Ideal.tanh (Ideal.ofBits .f32 0x3F4C422A#32 * ((val_main_v46 (F := Ideal) x0 x1 x3 j + x4 (ix1 d)) + Ideal.ofBits .f32 0x3D372713#32 * ((val_main_v46 (F := Ideal) x0 x1 x3 j + x4 (ix1 d)) * (val_main_v46 (F := Ideal) x0 x1 x3 j + x4 (ix1 d)) * (val_main_v46 (F := Ideal) x0 x1 x3 j + x4 (ix1 d))))) := by
    rw [val_main_v57_apply, e56]; exact Ideal.hostUnary_tanh_def _
  have e59 : val_main_v59 (F := Ideal) x0 x1 x3 x4 j = Ideal.ofBits .f32 0x3F800000#32 + Ideal.tanh (Ideal.ofBits .f32 0x3F4C422A#32 * ((val_main_v46 (F := Ideal) x0 x1 x3 j + x4 (ix1 d)) + Ideal.ofBits .f32 0x3D372713#32 * ((val_main_v46 (F := Ideal) x0 x1 x3 j + x4 (ix1 d)) * (val_main_v46 (F := Ideal) x0 x1 x3 j + x4 (ix1 d)) * (val_main_v46 (F := Ideal) x0 x1 x3 j + x4 (ix1 d))))) := by
    rw [val_main_v59_apply, hc3, e57]; rfl
  have e61 : val_main_v61 (F := Ideal) x0 x1 x3 x4 j = Ideal.ofBits .f32 0x3F000000#32 * (Ideal.ofBits .f32 0x3F800000#32 + Ideal.tanh (Ideal.ofBits .f32 0x3F4C422A#32 * ((val_main_v46 (F := Ideal) x0 x1 x3 j + x4 (ix1 d)) + Ideal.ofBits .f32 0x3D372713#32 * ((val_main_v46 (F := Ideal) x0 x1 x3 j + x4 (ix1 d)) * (val_main_v46 (F := Ideal) x0 x1 x3 j + x4 (ix1 d)) * (val_main_v46 (F := Ideal) x0 x1 x3 j + x4 (ix1 d)))))) := by
    rw [val_main_v61_apply, hc4, e59]; rfl
  rw [val_main_v62_apply, e49, e61]
  exact act_cube_left (val_main_v46 (F := Ideal) x0 x1 x3 j + x4 (ix1 d))
/-- The second dense stage is the transform of the activated, biased first aggregate. -/
theorem second_layer (x0 : (⟨S50000x256, .f32⟩ : BufTy).Contents (Elt Ideal)) (x1 : (⟨S2x800000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) :
    val_main_v63 (F := Ideal) x0 x1 x3 x4 x5 = transformAct (val_main_v46 (F := Ideal) x0 x1 x3) x4 x5 := by
  funext i
  rw [val_main_v63_apply]
  unfold transformAct
  refine Finset.sum_congr rfl fun d _ => ?_
  rw [second_entry x0 x1 x3 x4 (lidx_main_v63 i d) d rfl, row_entry63, col_entry63]

/-- One entry of the third layer's activated input: the aggregated features plus the bias, through the activation. -/
theorem third_entry (x0 : (⟨S50000x256, .f32⟩ : BufTy).Contents (Elt Ideal)) (x1 : (⟨S2x800000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (j : S50000x256.Idx) (d : Fin 256) (hj : (j 1).val = d.val) :
    val_main_v92 (F := Ideal) x0 x1 x3 x4 x5 x6 j = act (val_main_v76 (F := Ideal) x0 x1 x3 x4 x5 j + x6 (ix1 d)) := by
  have hb : val_main_v78 (F := Ideal) x6 j = x6 (ix1 d) := by
    rw [val_main_v78_apply, val_main_v77_apply]
    refine congrArg x6 (funext fun a => Fin.ext ?_)
    match a with
    | ⟨0, _⟩ => exact hj
  have hc1 : val_main_v82 (F := Ideal) j = Ideal.ofBits .f32 0x3D372713#32 := by rw [val_main_v82_apply]; rfl
  have hc2 : val_main_v85 (F := Ideal) j = Ideal.ofBits .f32 0x3F4C422A#32 := by rw [val_main_v85_apply]; rfl
  have hc3 : val_main_v88 (F := Ideal) j = Ideal.ofBits .f32 0x3F800000#32 := by rw [val_main_v88_apply]; rfl
  have hc4 : val_main_v90 (F := Ideal) j = Ideal.ofBits .f32 0x3F000000#32 := by rw [val_main_v90_apply]; rfl
  have e49 : val_main_v79 (F := Ideal) x0 x1 x3 x4 x5 x6 j = (val_main_v76 (F := Ideal) x0 x1 x3 x4 x5 j + x6 (ix1 d)) := by
    rw [val_main_v79_apply, hb]; rfl
  have e50 : val_main_v80 (F := Ideal) x0 x1 x3 x4 x5 x6 j = (val_main_v76 (F := Ideal) x0 x1 x3 x4 x5 j + x6 (ix1 d)) * (val_main_v76 (F := Ideal) x0 x1 x3 x4 x5 j + x6 (ix1 d)) := by
    rw [val_main_v80_apply, e49]; rfl
  have e51 : val_main_v81 (F := Ideal) x0 x1 x3 x4 x5 x6 j = (val_main_v76 (F := Ideal) x0 x1 x3 x4 x5 j + x6 (ix1 d)) * (val_main_v76 (F := Ideal) x0 x1 x3 x4 x5 j + x6 (ix1 d)) * (val_main_v76 (F := Ideal) x0 x1 x3 x4 x5 j + x6 (ix1 d)) := by
    rw [val_main_v81_apply, e50, e49]; rfl
  have e53 : val_main_v83 (F := Ideal) x0 x1 x3 x4 x5 x6 j = Ideal.ofBits .f32 0x3D372713#32 * ((val_main_v76 (F := Ideal) x0 x1 x3 x4 x5 j + x6 (ix1 d)) * (val_main_v76 (F := Ideal) x0 x1 x3 x4 x5 j + x6 (ix1 d)) * (val_main_v76 (F := Ideal) x0 x1 x3 x4 x5 j + x6 (ix1 d))) := by
    rw [val_main_v83_apply, hc1, e51]; rfl
  have e54 : val_main_v84 (F := Ideal) x0 x1 x3 x4 x5 x6 j = (val_main_v76 (F := Ideal) x0 x1 x3 x4 x5 j + x6 (ix1 d)) + Ideal.ofBits .f32 0x3D372713#32 * ((val_main_v76 (F := Ideal) x0 x1 x3 x4 x5 j + x6 (ix1 d)) * (val_main_v76 (F := Ideal) x0 x1 x3 x4 x5 j + x6 (ix1 d)) * (val_main_v76 (F := Ideal) x0 x1 x3 x4 x5 j + x6 (ix1 d))) := by
    rw [val_main_v84_apply, e49, e53]; rfl
  have e56 : val_main_v86 (F := Ideal) x0 x1 x3 x4 x5 x6 j = Ideal.ofBits .f32 0x3F4C422A#32 * ((val_main_v76 (F := Ideal) x0 x1 x3 x4 x5 j + x6 (ix1 d)) + Ideal.ofBits .f32 0x3D372713#32 * ((val_main_v76 (F := Ideal) x0 x1 x3 x4 x5 j + x6 (ix1 d)) * (val_main_v76 (F := Ideal) x0 x1 x3 x4 x5 j + x6 (ix1 d)) * (val_main_v76 (F := Ideal) x0 x1 x3 x4 x5 j + x6 (ix1 d)))) := by
    rw [val_main_v86_apply, hc2, e54]; rfl
  have e57 : val_main_v87 (F := Ideal) x0 x1 x3 x4 x5 x6 j = Ideal.tanh (Ideal.ofBits .f32 0x3F4C422A#32 * ((val_main_v76 (F := Ideal) x0 x1 x3 x4 x5 j + x6 (ix1 d)) + Ideal.ofBits .f32 0x3D372713#32 * ((val_main_v76 (F := Ideal) x0 x1 x3 x4 x5 j + x6 (ix1 d)) * (val_main_v76 (F := Ideal) x0 x1 x3 x4 x5 j + x6 (ix1 d)) * (val_main_v76 (F := Ideal) x0 x1 x3 x4 x5 j + x6 (ix1 d))))) := by
    rw [val_main_v87_apply, e56]; exact Ideal.hostUnary_tanh_def _
  have e59 : val_main_v89 (F := Ideal) x0 x1 x3 x4 x5 x6 j = Ideal.ofBits .f32 0x3F800000#32 + Ideal.tanh (Ideal.ofBits .f32 0x3F4C422A#32 * ((val_main_v76 (F := Ideal) x0 x1 x3 x4 x5 j + x6 (ix1 d)) + Ideal.ofBits .f32 0x3D372713#32 * ((val_main_v76 (F := Ideal) x0 x1 x3 x4 x5 j + x6 (ix1 d)) * (val_main_v76 (F := Ideal) x0 x1 x3 x4 x5 j + x6 (ix1 d)) * (val_main_v76 (F := Ideal) x0 x1 x3 x4 x5 j + x6 (ix1 d))))) := by
    rw [val_main_v89_apply, hc3, e57]; rfl
  have e61 : val_main_v91 (F := Ideal) x0 x1 x3 x4 x5 x6 j = Ideal.ofBits .f32 0x3F000000#32 * (Ideal.ofBits .f32 0x3F800000#32 + Ideal.tanh (Ideal.ofBits .f32 0x3F4C422A#32 * ((val_main_v76 (F := Ideal) x0 x1 x3 x4 x5 j + x6 (ix1 d)) + Ideal.ofBits .f32 0x3D372713#32 * ((val_main_v76 (F := Ideal) x0 x1 x3 x4 x5 j + x6 (ix1 d)) * (val_main_v76 (F := Ideal) x0 x1 x3 x4 x5 j + x6 (ix1 d)) * (val_main_v76 (F := Ideal) x0 x1 x3 x4 x5 j + x6 (ix1 d)))))) := by
    rw [val_main_v91_apply, hc4, e59]; rfl
  rw [val_main_v92_apply, e49, e61]
  exact act_cube_left (val_main_v76 (F := Ideal) x0 x1 x3 x4 x5 j + x6 (ix1 d))
/-- The third dense stage is the transform of the activated, biased second aggregate. -/
theorem third_layer (x0 : (⟨S50000x256, .f32⟩ : BufTy).Contents (Elt Ideal)) (x1 : (⟨S2x800000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) :
    val_main_v93 (F := Ideal) x0 x1 x3 x4 x5 x6 x7 = transformAct (val_main_v76 (F := Ideal) x0 x1 x3 x4 x5) x6 x7 := by
  funext i
  rw [val_main_v93_apply]
  unfold transformAct
  refine Finset.sum_congr rfl fun d _ => ?_
  rw [third_entry x0 x1 x3 x4 x5 x6 (lidx_main_v93 i d) d rfl, row_entry93, col_entry93]

/-- The reference's result, layer by layer: three times transform, aggregate, add the bias, with the activation inside the
    second and third transforms. -/
theorem result_layers (x0 : (⟨S50000x256, .f32⟩ : BufTy).Contents (Elt Ideal)) (x1 : (⟨S2x800000, .i32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) :
    val_main_v109 (F := Ideal) x0 x1 x3 x4 x5 x6 x7 x8
      = addf (F := Ideal) (φ := .f32) (aggregate x1 (transformAct (aggregate x1 (transformAct (aggregate x1 (transform x0 x3)) x4 x5)) x6 x7))
          (val_main_v108 (F := Ideal) x8) := by
  rw [← first_layer, ← first_aggregate, ← second_layer, ← second_aggregate, ← third_layer, ← third_aggregate]
  rfl

end Cert.ReferenceIdeal.Layered

end
-- ==== Proof.Stages.lean ====
/-
  The kernel program's buffers, stage by stage.

  Before the first launch the host computes the edge data from the edge list: the source and destination of every
  edge with the self-loops appended, and each edge's normalization weight.  No later operation writes those buffers,
  and no launch has them among its arrays, so every later stage reads the same edge data.  After each launch the host
  aggregates the launch's result over the edges; the aggregate and the next bias, recast as a one-row matrix, are what
  the next launch reads.  After the third aggregate the host adds the last bias.  Each launch's result array is the
  dense transform of the arrays it found, so the result buffer ends at the three layers composed.
-/
import proofs.«131338_j6691559047721_1_alg».proof.Proof.Gen.KernelIdeal.Frame
import proofs.«131338_j6691559047721_1_alg».proof.Proof.FirstLaunch
import proofs.«131338_j6691559047721_1_alg».proof.Proof.SecondLaunch
import proofs.«131338_j6691559047721_1_alg».proof.Proof.ThirdLaunch
import proofs.«131338_j6691559047721_1_alg».proof.Proof.RefLayers
import Idealize.ShloMosaic.Lib.StableHlo.Run
import Idealize.ShloMosaic.Lib.ValueLayout

set_option maxRecDepth 16384

noncomputable section

namespace Cert.KernelIdeal.Stages

open Cert.KernelIdeal Cert.KernelIdeal.Gen Cert.Gcn
open Idealize.ShloMosaic Idealize.ShloMosaic.TcCoe Idealize.ShloMosaic.ValueIdx Idealize.SL.Sem
open Cert.ReferenceIdeal.Layered (aggregate)

variable (m : (ℓ : Loc nD τ sig) → Buf (Elt Ideal) ℓ) (ρ : Dev nD → PrngReg) (c : Dev nD)

/-! ## The arguments and the edge data when the first launch is entered -/

theorem arg0_W3 : W3 m ρ c (Proc.devRef .tc main_arg0) = m ((c : Thread nD τ).loc main_arg0) :=
  (show W3 m ρ c (Proc.devRef .tc main_arg0) = W2 m ρ c (Proc.devRef .tc main_arg0) from
    StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((show W2 m ρ c (Proc.devRef .tc main_arg0) = W1 m ρ c (Proc.devRef .tc main_arg0) from
    StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((show W1 m ρ c (Proc.devRef .tc main_arg0) = W0 m ρ c (Proc.devRef .tc main_arg0) from
    StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem arg3_W3 : W3 m ρ c (Proc.devRef .tc main_arg3) = m ((c : Thread nD τ).loc main_arg3) :=
  (show W3 m ρ c (Proc.devRef .tc main_arg3) = W2 m ρ c (Proc.devRef .tc main_arg3) from
    StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((show W2 m ρ c (Proc.devRef .tc main_arg3) = W1 m ρ c (Proc.devRef .tc main_arg3) from
    StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((show W1 m ρ c (Proc.devRef .tc main_arg3) = W0 m ρ c (Proc.devRef .tc main_arg3) from
    StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem arg4_W3 : W3 m ρ c (Proc.devRef .tc main_arg4) = m ((c : Thread nD τ).loc main_arg4) :=
  (show W3 m ρ c (Proc.devRef .tc main_arg4) = W2 m ρ c (Proc.devRef .tc main_arg4) from
    StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((show W2 m ρ c (Proc.devRef .tc main_arg4) = W1 m ρ c (Proc.devRef .tc main_arg4) from
    StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((show W1 m ρ c (Proc.devRef .tc main_arg4) = W0 m ρ c (Proc.devRef .tc main_arg4) from
    StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem arg5_W3 : W3 m ρ c (Proc.devRef .tc main_arg5) = m ((c : Thread nD τ).loc main_arg5) :=
  (show W3 m ρ c (Proc.devRef .tc main_arg5) = W2 m ρ c (Proc.devRef .tc main_arg5) from
    StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((show W2 m ρ c (Proc.devRef .tc main_arg5) = W1 m ρ c (Proc.devRef .tc main_arg5) from
    StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((show W1 m ρ c (Proc.devRef .tc main_arg5) = W0 m ρ c (Proc.devRef .tc main_arg5) from
    StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem arg6_W3 : W3 m ρ c (Proc.devRef .tc main_arg6) = m ((c : Thread nD τ).loc main_arg6) :=
  (show W3 m ρ c (Proc.devRef .tc main_arg6) = W2 m ρ c (Proc.devRef .tc main_arg6) from
    StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((show W2 m ρ c (Proc.devRef .tc main_arg6) = W1 m ρ c (Proc.devRef .tc main_arg6) from
    StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((show W1 m ρ c (Proc.devRef .tc main_arg6) = W0 m ρ c (Proc.devRef .tc main_arg6) from
    StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem arg7_W3 : W3 m ρ c (Proc.devRef .tc main_arg7) = m ((c : Thread nD τ).loc main_arg7) :=
  (show W3 m ρ c (Proc.devRef .tc main_arg7) = W2 m ρ c (Proc.devRef .tc main_arg7) from
    StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((show W2 m ρ c (Proc.devRef .tc main_arg7) = W1 m ρ c (Proc.devRef .tc main_arg7) from
    StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((show W1 m ρ c (Proc.devRef .tc main_arg7) = W0 m ρ c (Proc.devRef .tc main_arg7) from
    StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))
theorem arg8_W3 : W3 m ρ c (Proc.devRef .tc main_arg8) = m ((c : Thread nD τ).loc main_arg8) :=
  (show W3 m ρ c (Proc.devRef .tc main_arg8) = W2 m ρ c (Proc.devRef .tc main_arg8) from
    StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((show W2 m ρ c (Proc.devRef .tc main_arg8) = W1 m ρ c (Proc.devRef .tc main_arg8) from
    StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
  ((show W1 m ρ c (Proc.devRef .tc main_arg8) = W0 m ρ c (Proc.devRef .tc main_arg8) from
    StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl))

theorem sources_W1 : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results
  rfl
theorem destinations_W1 : W1 m ρ c (Proc.devRef .tc main_v6) = Cert.ReferenceIdeal.ReadP.val_main_v7 (F := Ideal) (m ((c : Thread nD τ).loc main_arg1)) := by
  show StableHlo.after hostOps0 (W0 m ρ c) (Proc.devRef .tc main_v6) = _
  after_results
  rfl
theorem sources_W2 : W2 m ρ c (Proc.devRef .tc main_v3) = Cert.ReferenceIdeal.ReadP.val_main_v3 (F := Ideal) (m ((c : Thread nD τ).loc main_arg1)) :=
  (show W2 m ρ c (Proc.devRef .tc main_v3) = W1 m ρ c (Proc.devRef .tc main_v3) from
    StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (sources_W1 m ρ c)
theorem destinations_W2 : W2 m ρ c (Proc.devRef .tc main_v6) = Cert.ReferenceIdeal.ReadP.val_main_v7 (F := Ideal) (m ((c : Thread nD τ).loc main_arg1)) :=
  (show W2 m ρ c (Proc.devRef .tc main_v6) = W1 m ρ c (Proc.devRef .tc main_v6) from
    StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (destinations_W1 m ρ c)
/-- The edges' sources, self-loops appended. -/
theorem sources_W3 : W3 m ρ c (Proc.devRef .tc main_v3) = Cert.ReferenceIdeal.ReadP.val_main_v3 (F := Ideal) (m ((c : Thread nD τ).loc main_arg1)) :=
  (show W3 m ρ c (Proc.devRef .tc main_v3) = W2 m ρ c (Proc.devRef .tc main_v3) from
    StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (sources_W2 m ρ c)
/-- The edges' destinations, self-loops appended. -/
theorem destinations_W3 : W3 m ρ c (Proc.devRef .tc main_v6) = Cert.ReferenceIdeal.ReadP.val_main_v7 (F := Ideal) (m ((c : Thread nD τ).loc main_arg1)) :=
  (show W3 m ρ c (Proc.devRef .tc main_v6) = W2 m ρ c (Proc.devRef .tc main_v6) from
    StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (destinations_W2 m ρ c)

/-- The inverse square root of each node's degree (zero for a node of degree zero). -/
theorem inverse_root_degree_W2 : W2 m ρ c (Proc.devRef .tc main_v16) = Cert.ReferenceIdeal.ReadP.val_main_v17 (F := Ideal) (m ((c : Thread nD τ).loc main_arg1)) := by
  have h12 : W1 m ρ c (Proc.devRef .tc main_v12) = Cert.ReferenceIdeal.ReadP.val_main_v13 (F := Ideal) (m ((c : Thread nD τ).loc main_arg1)) := by
    show StableHlo.after hostOps0 (W0 m ρ c) (Proc.devRef .tc main_v12) = _
    after_results
    rfl
  have h15 : W1 m ρ c (Proc.devRef .tc main_v15) = Cert.ReferenceIdeal.ReadP.val_main_v16 (F := Ideal) (m ((c : Thread nD τ).loc main_arg1)) := by
    show StableHlo.after hostOps0 (W0 m ρ c) (Proc.devRef .tc main_v15) = _
    after_results
    rfl
  have hc : W1 m ρ c (Proc.devRef .tc main_cst_3) = Cert.ReferenceIdeal.ReadP.val_main_cst_3 (F := Ideal) := by
    show StableHlo.after hostOps0 (W0 m ρ c) (Proc.devRef .tc main_cst_3) = _
    after_results
    rfl
  show StableHlo.after hostOps0_1 (W1 m ρ c) (Proc.devRef .tc main_v16) = _
  generalize W1 m ρ c = V1 at h12 h15 hc ⊢
  after_results
  simp only [cast_eq]
  rw [h12, h15, hc]
  rfl

set_option maxHeartbeats 4000000 in
/-- The edges' normalization weights. -/
theorem weights_W3 : W3 m ρ c (Proc.devRef .tc main_v31) = Cert.ReferenceIdeal.ReadP.val_main_v32 (F := Ideal) (m ((c : Thread nD τ).loc main_arg1)) := by
  have h3 := sources_W2 m ρ c
  have h6 := destinations_W2 m ρ c
  have h16 := inverse_root_degree_W2 m ρ c
  show StableHlo.after hostOps0_2 (W2 m ρ c) (Proc.devRef .tc main_v31) = _
  generalize W2 m ρ c = V2 at h3 h6 h16 ⊢
  after_results
  rw [h3, h6, h16]
  rfl

/-! ## Buffers no later stage writes -/

theorem main_v3_W4 : W4 m ρ c (Proc.devRef .tc main_v3) = W3 m ρ c (Proc.devRef .tc main_v3) :=
  (show W4 m ρ c (Proc.devRef .tc main_v3) = W3 m ρ c (Proc.devRef .tc main_v3) from
    W4_of_ne m ρ c main_v3 (by decide))
theorem main_v3_W5 : W5 m ρ c (Proc.devRef .tc main_v3) = W3 m ρ c (Proc.devRef .tc main_v3) :=
  (show W5 m ρ c (Proc.devRef .tc main_v3) = W4 m ρ c (Proc.devRef .tc main_v3) from
    StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (main_v3_W4 m ρ c)
theorem main_v3_W6 : W6 m ρ c (Proc.devRef .tc main_v3) = W3 m ρ c (Proc.devRef .tc main_v3) :=
  (show W6 m ρ c (Proc.devRef .tc main_v3) = W5 m ρ c (Proc.devRef .tc main_v3) from
    W6_of_ne m ρ c main_v3 (by decide)).trans (main_v3_W5 m ρ c)
theorem main_v3_W7 : W7 m ρ c (Proc.devRef .tc main_v3) = W3 m ρ c (Proc.devRef .tc main_v3) :=
  (show W7 m ρ c (Proc.devRef .tc main_v3) = W6 m ρ c (Proc.devRef .tc main_v3) from
    StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (main_v3_W6 m ρ c)
theorem main_v3_W8 : W8 m ρ c (Proc.devRef .tc main_v3) = W3 m ρ c (Proc.devRef .tc main_v3) :=
  (show W8 m ρ c (Proc.devRef .tc main_v3) = W7 m ρ c (Proc.devRef .tc main_v3) from
    W8_of_ne m ρ c main_v3 (by decide)).trans (main_v3_W7 m ρ c)

theorem main_v6_W4 : W4 m ρ c (Proc.devRef .tc main_v6) = W3 m ρ c (Proc.devRef .tc main_v6) :=
  (show W4 m ρ c (Proc.devRef .tc main_v6) = W3 m ρ c (Proc.devRef .tc main_v6) from
    W4_of_ne m ρ c main_v6 (by decide))
theorem main_v6_W5 : W5 m ρ c (Proc.devRef .tc main_v6) = W3 m ρ c (Proc.devRef .tc main_v6) :=
  (show W5 m ρ c (Proc.devRef .tc main_v6) = W4 m ρ c (Proc.devRef .tc main_v6) from
    StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (main_v6_W4 m ρ c)
theorem main_v6_W6 : W6 m ρ c (Proc.devRef .tc main_v6) = W3 m ρ c (Proc.devRef .tc main_v6) :=
  (show W6 m ρ c (Proc.devRef .tc main_v6) = W5 m ρ c (Proc.devRef .tc main_v6) from
    W6_of_ne m ρ c main_v6 (by decide)).trans (main_v6_W5 m ρ c)
theorem main_v6_W7 : W7 m ρ c (Proc.devRef .tc main_v6) = W3 m ρ c (Proc.devRef .tc main_v6) :=
  (show W7 m ρ c (Proc.devRef .tc main_v6) = W6 m ρ c (Proc.devRef .tc main_v6) from
    StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (main_v6_W6 m ρ c)
theorem main_v6_W8 : W8 m ρ c (Proc.devRef .tc main_v6) = W3 m ρ c (Proc.devRef .tc main_v6) :=
  (show W8 m ρ c (Proc.devRef .tc main_v6) = W7 m ρ c (Proc.devRef .tc main_v6) from
    W8_of_ne m ρ c main_v6 (by decide)).trans (main_v6_W7 m ρ c)

theorem main_v31_W4 : W4 m ρ c (Proc.devRef .tc main_v31) = W3 m ρ c (Proc.devRef .tc main_v31) :=
  (show W4 m ρ c (Proc.devRef .tc main_v31) = W3 m ρ c (Proc.devRef .tc main_v31) from
    W4_of_ne m ρ c main_v31 (by decide))
theorem main_v31_W5 : W5 m ρ c (Proc.devRef .tc main_v31) = W3 m ρ c (Proc.devRef .tc main_v31) :=
  (show W5 m ρ c (Proc.devRef .tc main_v31) = W4 m ρ c (Proc.devRef .tc main_v31) from
    StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (main_v31_W4 m ρ c)
theorem main_v31_W6 : W6 m ρ c (Proc.devRef .tc main_v31) = W3 m ρ c (Proc.devRef .tc main_v31) :=
  (show W6 m ρ c (Proc.devRef .tc main_v31) = W5 m ρ c (Proc.devRef .tc main_v31) from
    W6_of_ne m ρ c main_v31 (by decide)).trans (main_v31_W5 m ρ c)
theorem main_v31_W7 : W7 m ρ c (Proc.devRef .tc main_v31) = W3 m ρ c (Proc.devRef .tc main_v31) :=
  (show W7 m ρ c (Proc.devRef .tc main_v31) = W6 m ρ c (Proc.devRef .tc main_v31) from
    StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (main_v31_W6 m ρ c)
theorem main_v31_W8 : W8 m ρ c (Proc.devRef .tc main_v31) = W3 m ρ c (Proc.devRef .tc main_v31) :=
  (show W8 m ρ c (Proc.devRef .tc main_v31) = W7 m ρ c (Proc.devRef .tc main_v31) from
    W8_of_ne m ρ c main_v31 (by decide)).trans (main_v31_W7 m ρ c)

theorem main_arg4_W4 : W4 m ρ c (Proc.devRef .tc main_arg4) = W3 m ρ c (Proc.devRef .tc main_arg4) :=
  (show W4 m ρ c (Proc.devRef .tc main_arg4) = W3 m ρ c (Proc.devRef .tc main_arg4) from
    W4_of_ne m ρ c main_arg4 (by decide))

theorem main_arg5_W4 : W4 m ρ c (Proc.devRef .tc main_arg5) = W3 m ρ c (Proc.devRef .tc main_arg5) :=
  (show W4 m ρ c (Proc.devRef .tc main_arg5) = W3 m ρ c (Proc.devRef .tc main_arg5) from
    W4_of_ne m ρ c main_arg5 (by decide))
theorem main_arg5_W5 : W5 m ρ c (Proc.devRef .tc main_arg5) = W3 m ρ c (Proc.devRef .tc main_arg5) :=
  (show W5 m ρ c (Proc.devRef .tc main_arg5) = W4 m ρ c (Proc.devRef .tc main_arg5) from
    StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (main_arg5_W4 m ρ c)

theorem main_arg6_W4 : W4 m ρ c (Proc.devRef .tc main_arg6) = W3 m ρ c (Proc.devRef .tc main_arg6) :=
  (show W4 m ρ c (Proc.devRef .tc main_arg6) = W3 m ρ c (Proc.devRef .tc main_arg6) from
    W4_of_ne m ρ c main_arg6 (by decide))
theorem main_arg6_W5 : W5 m ρ c (Proc.devRef .tc main_arg6) = W3 m ρ c (Proc.devRef .tc main_arg6) :=
  (show W5 m ρ c (Proc.devRef .tc main_arg6) = W4 m ρ c (Proc.devRef .tc main_arg6) from
    StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (main_arg6_W4 m ρ c)
theorem main_arg6_W6 : W6 m ρ c (Proc.devRef .tc main_arg6) = W3 m ρ c (Proc.devRef .tc main_arg6) :=
  (show W6 m ρ c (Proc.devRef .tc main_arg6) = W5 m ρ c (Proc.devRef .tc main_arg6) from
    W6_of_ne m ρ c main_arg6 (by decide)).trans (main_arg6_W5 m ρ c)

theorem main_arg7_W4 : W4 m ρ c (Proc.devRef .tc main_arg7) = W3 m ρ c (Proc.devRef .tc main_arg7) :=
  (show W4 m ρ c (Proc.devRef .tc main_arg7) = W3 m ρ c (Proc.devRef .tc main_arg7) from
    W4_of_ne m ρ c main_arg7 (by decide))
theorem main_arg7_W5 : W5 m ρ c (Proc.devRef .tc main_arg7) = W3 m ρ c (Proc.devRef .tc main_arg7) :=
  (show W5 m ρ c (Proc.devRef .tc main_arg7) = W4 m ρ c (Proc.devRef .tc main_arg7) from
    StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (main_arg7_W4 m ρ c)
theorem main_arg7_W6 : W6 m ρ c (Proc.devRef .tc main_arg7) = W3 m ρ c (Proc.devRef .tc main_arg7) :=
  (show W6 m ρ c (Proc.devRef .tc main_arg7) = W5 m ρ c (Proc.devRef .tc main_arg7) from
    W6_of_ne m ρ c main_arg7 (by decide)).trans (main_arg7_W5 m ρ c)
theorem main_arg7_W7 : W7 m ρ c (Proc.devRef .tc main_arg7) = W3 m ρ c (Proc.devRef .tc main_arg7) :=
  (show W7 m ρ c (Proc.devRef .tc main_arg7) = W6 m ρ c (Proc.devRef .tc main_arg7) from
    StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (main_arg7_W6 m ρ c)

theorem main_arg8_W4 : W4 m ρ c (Proc.devRef .tc main_arg8) = W3 m ρ c (Proc.devRef .tc main_arg8) :=
  (show W4 m ρ c (Proc.devRef .tc main_arg8) = W3 m ρ c (Proc.devRef .tc main_arg8) from
    W4_of_ne m ρ c main_arg8 (by decide))
theorem main_arg8_W5 : W5 m ρ c (Proc.devRef .tc main_arg8) = W3 m ρ c (Proc.devRef .tc main_arg8) :=
  (show W5 m ρ c (Proc.devRef .tc main_arg8) = W4 m ρ c (Proc.devRef .tc main_arg8) from
    StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (main_arg8_W4 m ρ c)
theorem main_arg8_W6 : W6 m ρ c (Proc.devRef .tc main_arg8) = W3 m ρ c (Proc.devRef .tc main_arg8) :=
  (show W6 m ρ c (Proc.devRef .tc main_arg8) = W5 m ρ c (Proc.devRef .tc main_arg8) from
    W6_of_ne m ρ c main_arg8 (by decide)).trans (main_arg8_W5 m ρ c)
theorem main_arg8_W7 : W7 m ρ c (Proc.devRef .tc main_arg8) = W3 m ρ c (Proc.devRef .tc main_arg8) :=
  (show W7 m ρ c (Proc.devRef .tc main_arg8) = W6 m ρ c (Proc.devRef .tc main_arg8) from
    StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (main_arg8_W6 m ρ c)
theorem main_arg8_W8 : W8 m ρ c (Proc.devRef .tc main_arg8) = W3 m ρ c (Proc.devRef .tc main_arg8) :=
  (show W8 m ρ c (Proc.devRef .tc main_arg8) = W7 m ρ c (Proc.devRef .tc main_arg8) from
    W8_of_ne m ρ c main_arg8 (by decide)).trans (main_arg8_W7 m ρ c)

end Cert.KernelIdeal.Stages

end
-- ==== Proof.Composition.lean ====
/-
  The kernel program's result buffer is the three layers composed.

  Each launch's result array is the dense transform of the arrays the launch found (the three launch modules); the
  host stretch after it aggregates that array over the edges, with the edge data computed once before the first
  launch and never written again; the next launch reads the aggregate, the next weight matrix and the next bias, recast
  as a one-row matrix.  Substituting stage into stage, the result buffer ends at
  `aggregate (transformAct (aggregate (transformAct (aggregate (transform x W₁)) b₁ W₂)) b₂ W₃) + b₃`, which is the
  reference's result read layer by layer.
-/
import proofs.«131338_j6691559047721_1_alg».proof.Proof.Stages

set_option maxRecDepth 16384

noncomputable section

namespace Cert.KernelIdeal.Composition

open Cert.KernelIdeal Cert.KernelIdeal.Gen Cert.KernelIdeal.Stages Cert.Gcn
open Idealize.ShloMosaic Idealize.ShloMosaic.TcCoe Idealize.ShloMosaic.ValueIdx Idealize.SL.Sem
open Cert.ReferenceIdeal.Layered (aggregate)

variable (m : (ℓ : Loc nD τ sig) → Buf (Elt Ideal) ℓ) (ρ : Dev nD → PrngReg) (c : Dev nD)

/-- The first launch's result: the plain transform of the features by the first weight matrix. -/
theorem first_result : W4 m ρ c (Proc.devRef .tc main_v33) = transform (m ((c : Thread nD τ).loc main_arg0)) (m ((c : Thread nD τ).loc main_arg3)) := by
  rw [show W4 m ρ c (Proc.devRef .tc main_v33) = (dat0 (V3 m ρ) c).arrAt 3 cfg0.N from W4_arr m ρ c 3,
    FirstLaunch.result_array (V3 m ρ) c]
  show transform (W3 m ρ c (Proc.devRef .tc main_arg0)) (W3 m ρ c (Proc.devRef .tc main_arg3)) = _
  rw [arg0_W3, arg3_W3]

set_option maxHeartbeats 4000000 in
/-- The first aggregate. -/
theorem first_aggregate : W5 m ρ c (Proc.devRef .tc main_v46) = aggregate (m ((c : Thread nD τ).loc main_arg1)) (transform (m ((c : Thread nD τ).loc main_arg0)) (m ((c : Thread nD τ).loc main_arg3))) := by
  show StableHlo.after hostOps1 (W4 m ρ c) (Proc.devRef .tc main_v46) = _
  after_results
  rw [main_v3_W4, main_v6_W4, main_v31_W4, sources_W3, destinations_W3, weights_W3, first_result]
  rfl

set_option maxHeartbeats 4000000 in
/-- The first bias, recast as a one-row matrix. -/
theorem first_bias_row (d : Fin 256) :
    (W5 m ρ c (Proc.devRef .tc main_v47) : S1x256.Idx → EReal) (ix2 (0 : Fin 1) d) = (m ((c : Thread nD τ).loc main_arg4)) (ix1 d) := by
  have e : W5 m ρ c (Proc.devRef .tc main_v47) = shapeCast S1x256 (m ((c : Thread nD τ).loc main_arg4)) shapeCasts_S256_S1x256 := by
    show StableHlo.after hostOps1 (W4 m ρ c) (Proc.devRef .tc main_v47) = _
    after_results
    rw [main_arg4_W4, arg4_W3]
    rfl
  rw [e]
  exact shapeCast_a_1a_apply _ _ 0 d

/-- The second launch's result. -/
theorem second_result : W6 m ρ c (Proc.devRef .tc main_v48)
    = transformAct (aggregate (m ((c : Thread nD τ).loc main_arg1)) (transform (m ((c : Thread nD τ).loc main_arg0)) (m ((c : Thread nD τ).loc main_arg3)))) (m ((c : Thread nD τ).loc main_arg4)) (m ((c : Thread nD τ).loc main_arg5)) := by
  rw [show W6 m ρ c (Proc.devRef .tc main_v48) = (dat1 (V5 m ρ) c).arrAt 3 cfg1.N from W6_arr m ρ c 3,
    SecondLaunch.result_array (V5 m ρ) c (m ((c : Thread nD τ).loc main_arg4)) (first_bias_row m ρ c)]
  show transformAct (W5 m ρ c (Proc.devRef .tc main_v46)) _ (W5 m ρ c (Proc.devRef .tc main_arg5)) = _
  rw [first_aggregate, main_arg5_W5, arg5_W3]

set_option maxHeartbeats 4000000 in
/-- The second aggregate. -/
theorem second_aggregate : W7 m ρ c (Proc.devRef .tc main_v61)
    = aggregate (m ((c : Thread nD τ).loc main_arg1)) (transformAct (aggregate (m ((c : Thread nD τ).loc main_arg1)) (transform (m ((c : Thread nD τ).loc main_arg0)) (m ((c : Thread nD τ).loc main_arg3)))) (m ((c : Thread nD τ).loc main_arg4)) (m ((c : Thread nD τ).loc main_arg5))) := by
  show StableHlo.after hostOps2 (W6 m ρ c) (Proc.devRef .tc main_v61) = _
  after_results
  rw [main_v3_W6, main_v6_W6, main_v31_W6, sources_W3, destinations_W3, weights_W3, second_result]
  rfl

set_option maxHeartbeats 4000000 in
/-- The second bias, recast as a one-row matrix. -/
theorem second_bias_row (d : Fin 256) :
    (W7 m ρ c (Proc.devRef .tc main_v62) : S1x256.Idx → EReal) (ix2 (0 : Fin 1) d) = (m ((c : Thread nD τ).loc main_arg6)) (ix1 d) := by
  have e : W7 m ρ c (Proc.devRef .tc main_v62) = shapeCast S1x256 (m ((c : Thread nD τ).loc main_arg6)) shapeCasts_S256_S1x256 := by
    show StableHlo.after hostOps2 (W6 m ρ c) (Proc.devRef .tc main_v62) = _
    after_results
    rw [main_arg6_W6, arg6_W3]
    rfl
  rw [e]
  exact shapeCast_a_1a_apply _ _ 0 d

/-- The third launch's result. -/
theorem third_result : W8 m ρ c (Proc.devRef .tc main_v63)
    = transformAct (aggregate (m ((c : Thread nD τ).loc main_arg1)) (transformAct (aggregate (m ((c : Thread nD τ).loc main_arg1)) (transform (m ((c : Thread nD τ).loc main_arg0)) (m ((c : Thread nD τ).loc main_arg3)))) (m ((c : Thread nD τ).loc main_arg4)) (m ((c : Thread nD τ).loc main_arg5)))) (m ((c : Thread nD τ).loc main_arg6)) (m ((c : Thread nD τ).loc main_arg7)) := by
  rw [show W8 m ρ c (Proc.devRef .tc main_v63) = (dat2 (V7 m ρ) c).arrAt 3 cfg2.N from W8_arr m ρ c 3,
    ThirdLaunch.result_array (V7 m ρ) c (m ((c : Thread nD τ).loc main_arg6)) (second_bias_row m ρ c)]
  show transformAct (W7 m ρ c (Proc.devRef .tc main_v61)) _ (W7 m ρ c (Proc.devRef .tc main_arg7)) = _
  rw [second_aggregate, main_arg7_W7, arg7_W3]

set_option maxHeartbeats 4000000 in
/-- The result buffer: the third aggregate plus the last bias, which is the reference's result at the same arguments. -/
theorem result : W9 m ρ c (Proc.devRef .tc main_v79)
    = Cert.ReferenceIdeal.ReadP.val_main_v109 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Cert.ReferenceIdeal.Layered.result_layers]
  show StableHlo.after hostOps3 (W8 m ρ c) (Proc.devRef .tc main_v79) = _
  after_results
  rw [main_v3_W8, main_v6_W8, main_v31_W8, sources_W3, destinations_W3, weights_W3, third_result, main_arg8_W8, arg8_W3]
  rfl

end Cert.KernelIdeal.Composition

end
-- ==== Proof.lean ====
/-
  A three-layer graph convolution computed two ways, equal on the extended reals.

  Both programs compute, from node features `x`, an edge list and three weight matrices and biases,
  `agg (act (agg (act (agg (x · W₁) + b₁) · W₂) + b₂) · W₃) + b₃`, where `agg` gathers rows by edge source, scales them by
  the symmetric normalization weight of the edge and adds them into the rows of the edge's destination, and `act` is the
  tanh form of GELU.  The reference does every step with whole-array host operations.  The kernel program does the
  three dense products, with the bias and the activation of the layer before fused in, in launches that walk the rows in
  blocks of 2000, and leaves the edge data and the aggregation to the same host operations.

  A row of a product depends on the same row of the features only, so the blocks of rows tile the whole product; the
  bias row is spread over a block exactly as over the whole array; rounding the factors to a shorter format is the
  identity on the extended reals; and the only difference inside the activation is the bracketing of a cube, which
  commutativity of multiplication removes.  No step distributes or cancels, so the finiteness of the inputs is never
  used.  The kernel program's idealization rewrote no operation, so there is nothing to preserve beyond its text.
-/
import proofs.«131338_j6691559047721_1_alg».proof.Defs
import proofs.«131338_j6691559047721_1_alg».proof.Proof.Gen.Kernel
import proofs.«131338_j6691559047721_1_alg».proof.Proof.Gen.Kernel.Skeleton
import proofs.«131338_j6691559047721_1_alg».proof.Proof.Gen.Kernel.Launch
import proofs.«131338_j6691559047721_1_alg».proof.Proof.Gen.Kernel.Points
import proofs.«131338_j6691559047721_1_alg».proof.Proof.Gen.Kernel.Frame
import proofs.«131338_j6691559047721_1_alg».proof.Proof.Gen.KernelIdeal
import proofs.«131338_j6691559047721_1_alg».proof.Proof.Gen.KernelIdeal.Skeleton
import proofs.«131338_j6691559047721_1_alg».proof.Proof.Gen.KernelIdeal.Launch
import proofs.«131338_j6691559047721_1_alg».proof.Proof.Gen.KernelIdeal.Points
import proofs.«131338_j6691559047721_1_alg».proof.Proof.Gen.KernelIdeal.Frame
import proofs.«131338_j6691559047721_1_alg».proof.Proof.Gen.ReferenceIdeal
import proofs.«131338_j6691559047721_1_alg».proof.Proof.Gen.Pre_finite_inputs
import proofs.«131338_j6691559047721_1_alg».proof.Proof.RefRun
import proofs.«131338_j6691559047721_1_alg».proof.Proof.RefRead
import proofs.«131338_j6691559047721_1_alg».proof.Proof.ResultRun
import proofs.«131338_j6691559047721_1_alg».proof.Proof.Composition
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both programs end with the three layers composed, the kernel program in
    its result buffer through its launches and host stretches, the reference through its host operations. -/
theorem algebraic : Cert.algebraic_KernelIdeal_ReferenceIdeal := by
  intro m ρ m' ρ' _ hagree
  refine ⟨fun c => Cert.KernelIdeal.Gen.W9 m ρ c (Proc.devRef .tc Cert.KernelIdeal.main_v79),
    Cert.KernelIdeal.ResultRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v109 m' c
    = Cert.KernelIdeal.Gen.W9 m ρ c (Proc.devRef .tc Cert.KernelIdeal.main_v79)
  rw [Cert.ReferenceIdeal.ReadP.val_main_v109_eq, Cert.KernelIdeal.Composition.result m ρ c]
  obtain ⟨h0, h1, -, h3, h4, h5, h6, h7, h8⟩ := hagree c
  rw [h0, h1, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
